-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S_ : Shape := ⟨0, ![]⟩

class Facts : Prop where
  bcast_S_S8x128x128x3x64 : S_.BroadcastsInDim S8x128x128x3x64 (![] : Fin 0 → Fin S8x128x128x3x64.rank)
  reducesTo_S8x128x128x3x64_S_d0_1_2_3_4 : S8x128x128x3x64.ReducesTo [0, 1, 2, 3, 4] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x128x128x3x64 .f32) (main_arg1 : FVec F S8x128x128x3x64 .f32) (main_arg2 : FVec F S8x128x128 .f32) (main_arg3 : FVec F S128x128 .f32) (main_arg4 : FVec F S128 .f32) : IVec S_ 1 :=
  let main_v0 : FVec F S8x128x128x3x64 .f32 := Host.absf main_arg0
  let main_cst : FVec F S_ .f32 := constant S_ .f32 0x7F800000#32
  let main_v1 : FVec F S8x128x128x3x64 .f32 := broadcastInDim S8x128x128x3x64 ![] bcast_S_S8x128x128x3x64 main_cst
  let main_v2 : IVec S8x128x128x3x64 1 := cmpf .olt main_v0 main_v1
  let main_c : IVec S_ 1 := constantI S_ 1 1#1
  let main_v3 : IVec S_ 1 := (fun x v => Host.reduce IntOp.andi x v reducesTo_S8x128x128x3x64_S_d0_1_2_3_4 h_S_) main_v2 main_c
  let main_v4 : FVec F S8x128x128x3x64 .f32 := Host.absf main_arg1
  let main_cst_0 : FVec F S_ .f32 := constant S_ .f32 0x7F800000#32
  let main_v5 : FVec F S8x128x128x3x64 .f32 := broadcastInDim S8x128x128x3x64 ![] bcast_S_S8x128x128x3x64 main_cst_0
  let main_v6 : IVec S8x128x128x3x64 1 := cmpf .olt main_v4 main_v5
  let main_c_1 : IVec S_ 1 := constantI S_ 1 1#1
  let main_v7 : IVec S_ 1 := (fun x v => Host.reduce IntOp.andi x v reducesTo_S8x128x128x3x64_S_d0_1_2_3_4 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S64x128 : Shape := ⟨2, ![64, 128]⟩
abbrev S8x128x128x192 : Shape := ⟨4, ![8, 128, 128, 192]⟩
abbrev S8x128x384 : Shape := ⟨3, ![8, 128, 384]⟩
abbrev S1x32x128x192 : Shape := ⟨4, ![1, 32, 128, 192]⟩
abbrev S1x32x128 : Shape := ⟨3, ![1, 32, 128]⟩
abbrev S1x32x384 : Shape := ⟨3, ![1, 32, 384]⟩
abbrev S32x128 : Shape := ⟨2, ![32, 128]⟩
abbrev S32x128x192 : Shape := ⟨3, ![32, 128, 192]⟩
abbrev S32x128x1 : Shape := ⟨3, ![32, 128, 1]⟩
abbrev S32x192 : Shape := ⟨2, ![32, 192]⟩
abbrev S32 : Shape := ⟨1, ![32]⟩
abbrev S32x1 : Shape := ⟨2, ![32, 1]⟩
abbrev S32x64 : Shape := ⟨2, ![32, 64]⟩
abbrev S1x128 : Shape := ⟨2, ![1, 128]⟩
abbrev S8x128x3x128 : Shape := ⟨4, ![8, 128, 3, 128]⟩

abbrev nBuf : Space → Nat
  | .hbm => 11
  | .vmem => 11
  | .smem => 0
  | _ => 0

abbrev bufTy : (tb : Table) → Fin (tcTables nBuf tb) → BufTy
  | .hbm, ⟨0, _⟩ => ⟨S8x128x128x3x64, .f32⟩
  | .hbm, ⟨1, _⟩ => ⟨S8x128x128x3x64, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S8x128x128x192, .f32⟩
  | .hbm, ⟨8, _⟩ => ⟨S8x128x128x192, .f32⟩
  | .hbm, ⟨9, _⟩ => ⟨S8x128x384, .f32⟩
  | .hbm, ⟨10, _⟩ => ⟨S8x128x3x128, .f32⟩
  | .local _ .vmem, ⟨0, _⟩ => ⟨S1x32x128x192, .f32⟩
  | .local _ .vmem, ⟨1, _⟩ => ⟨S1x32x128x192, .f32⟩
  | .local _ .vmem, ⟨2, _⟩ => ⟨S1x32x128x192, .f32⟩
  | .local _ .vmem, ⟨3, _⟩ => ⟨S1x32x128x192, .f32⟩
  | .local _ .vmem, ⟨4, _⟩ => ⟨S1x32x128, .f32⟩
  | .local _ .vmem, ⟨5, _⟩ => ⟨S1x32x128, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S1x32x384, .f32⟩
  | .local _ .vmem, ⟨10, _⟩ => ⟨S1x32x384, .f32⟩
  | _, _ => ⟨S8x128x128x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x32x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S128x128_S64x128_0_0 : S128x128.Slices ![0, 0] S64x128
  slices_S128x128_S64x128_64_0 : S128x128.Slices ![64, 0] S64x128
  shapeCasts_S8x128x128x3x64_S8x128x128x192 : S8x128x128x3x64.ShapeCasts S8x128x128x192
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S128_S128_0 : ∀ a, (![0] : Fin 1 → Nat) a + S128.size a ≤ S128.size a
  h_S128 : 0 < S128.numel
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  inb_S1x32x128x192_S1x32x128x192_0_0_0_0 : ∀ a, (![0, 0, 0, 0] : Fin 4 → Nat) a + S1x32x128x192.size a ≤ S1x32x128x192.size a
  h_S1x32x128x192 : 0 < S1x32x128x192.numel
  shapeCasts_S1x32x128x192_S32x128x192 : S1x32x128x192.ShapeCasts S32x128x192
  shapeCasts_S32x128_S32x128x1 : S32x128.ShapeCasts S32x128x1
  broadcasts_S32x128x1_S32x128x192 : S32x128x1.Broadcasts S32x128x192
  reduces_S32x128x192_S32x192 : S32x128x192.Reduces [1] S32x192
  reduces_S32x128_S32 : S32x128.Reduces [1] S32
  shapeCasts_S32_S32x1 : S32.ShapeCasts S32x1
  slices_S32x192_o0_0_S32x64 : S32x192.Slices ![0, 0] S32x64
  shapeCasts_S128_S1x128 : S128.ShapeCasts S1x128
  broadcasts_S32x1_S32x128 : S32x1.Broadcasts S32x128
  broadcasts_S1x128_S32x128 : S1x128.Broadcasts S32x128
  inb_S1x32x384_S1x32x128_0_0_0 : ∀ a, (![0, 0, 0] : Fin 3 → Nat) a + S1x32x128.size a ≤ S1x32x384.size a
  shapeCasts_S32x128_S1x32x128 : S32x128.ShapeCasts S1x32x128
  slices_S32x192_o0_64_S32x64 : S32x192.Slices ![0, 64] S32x64
  inb_S1x32x384_S1x32x128_0_0_128 : ∀ a, (![0, 0, 128] : Fin 3 → Nat) a + S1x32x128.size a ≤ S1x32x384.size a
  slices_S32x192_o0_128_S32x64 : S32x192.Slices ![0, 128] S32x64
  inb_S1x32x384_S1x32x128_0_0_256 : ∀ a, (![0, 0, 256] : Fin 3 → Nat) a + S1x32x128.size a ≤ S1x32x384.size a
  shapeCasts_S8x128x384_S8x128x3x128 : S8x128x384.ShapeCasts S8x128x3x128
  dot_S32x64_S64x128_S32x128_1_0_0_1_n_n_wf : DotDims.WF S32x64 S64x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x192.size a ≤ S8x128x128x192.size a
  hwx0_0 : ∀ i : grid0.Coords, EltTy.bits .f32 = 32 ∨ (Rect.block (s := S8x128x128x192) S1x32x128x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x128x192.size a ≤ S8x128x128x192.size a
  hwx0_1 : ∀ i : grid0.Coords, EltTy.bits .f32 = 32 ∨ (Rect.block (s := S8x128x128x192) S1x32x128x192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128.size a ≤ S8x128x128.size a
  hwx0_2 : ∀ i : grid0.Coords, EltTy.bits .f32 = 32 ∨ (Rect.block (s := S8x128x128) S1x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x384.size a ≤ S8x128x384.size a
  hwx0_6 : ∀ i : grid0.Coords, EltTy.bits .f32 = 32 ∨ (Rect.block (s := S8x128x384) S1x32x384.size (cc0_transform_6 i) (hinb0_6 i)).WholeWords (EltTy.packing .f32)

variable [Facts₀]

def dot_S32x64_S64x128_S32x128_1_0_0_1_n_n : DotDims S32x64 S64x128 S32x128 where
  lhsContracting := [1]
  rhsContracting := [0]
  lhsNonContracting := [0]
  rhsNonContracting := [1]
  lhsBatch := []
  rhsBatch := []
  wf := dot_S32x64_S64x128_S32x128_1_0_0_1_n_n_wf

abbrev win0_0 : Pipeline.Window sig grid0 :=
  Pipeline.Window.ofSpec (Memref.whole main_v2) S1x32x128x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x32x128x192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x32x384.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S8x128x128x3x128 : Shape := ⟨5, ![8, 128, 128, 3, 128]⟩
abbrev S1x1x1x1x128 : Shape := ⟨5, ![1, 1, 1, 1, 128]⟩
abbrev S8x128x128x1x1 : Shape := ⟨5, ![8, 128, 128, 1, 1]⟩
abbrev S_ : Shape := ⟨0, ![]⟩
abbrev S8x128x3x128 : Shape := ⟨4, ![8, 128, 3, 128]⟩

abbrev nBuf : Space → Nat
  | .hbm => 18
  | .vmem => 0
  | .smem => 0
  | _ => 0

abbrev bufTy : (tb : Table) → Fin (tcTables nBuf tb) → BufTy
  | .hbm, ⟨0, _⟩ => ⟨S8x128x128x3x64, .f32⟩
  | .hbm, ⟨1, _⟩ => ⟨S8x128x128x3x64, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S8x128x128x3x128, .f32⟩
  | .hbm, ⟨6, _⟩ => ⟨S8x128x128x3x128, .f32⟩
  | .hbm, ⟨7, _⟩ => ⟨S1x1x1x1x128, .f32⟩
  | .hbm, ⟨8, _⟩ => ⟨S8x128x128x3x128, .f32⟩
  | .hbm, ⟨9, _⟩ => ⟨S8x128x128x3x128, .f32⟩
  | .hbm, ⟨10, _⟩ => ⟨S8x128x128x1x1, .f32⟩
  | .hbm, ⟨11, _⟩ => ⟨S8x128x128x3x128, .f32⟩
  | .hbm, ⟨12, _⟩ => ⟨S8x128x128x3x128, .f32⟩
  | .hbm, ⟨13, _⟩ => ⟨S_, .f32⟩
  | .hbm, ⟨14, _⟩ => ⟨S8x128x3x128, .f32⟩
  | .hbm, ⟨15, _⟩ => ⟨S_, .f32⟩
  | .hbm, ⟨16, _⟩ => ⟨S8x128x3x128, .f32⟩
  | .hbm, ⟨17, _⟩ => ⟨S8x128x3x128, .f32⟩
  | _, _ => ⟨S8x128x128x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S8x128x128x3x64_S8x128x128x3x64_S8x128x128x3x128_d4 : Shape.Concatenates [S8x128x128x3x64, S8x128x128x3x64] S8x128x128x3x128 4
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  bcast_S8x128x128_S8x128x128x1x1_0_1_2 : S8x128x128.BroadcastsInDim S8x128x128x1x1 (![0, 1, 2] : Fin 3 → Fin S8x128x128x1x1.rank)
  bcast_S8x128x128x1x1_S8x128x128x3x128_0_1_2_3_4 : S8x128x128x1x1.BroadcastsInDim S8x128x128x3x128 (![0, 1, 2, 3, 4] : Fin 5 → Fin S8x128x128x3x128.rank)
  reducesTo_S8x128x128x3x128_S8x128x3x128_d2 : S8x128x128x3x128.ReducesTo [2] S8x128x3x128
  h_S_ : 0 < S_.numel
  bcast_S_S8x128x3x128 : S_.BroadcastsInDim S8x128x3x128 (![] : Fin 0 → Fin S8x128x3x128.rank)
  dot_S8x128x128x3x128_S128x128_S8x128x128x3x128_4_0_0123_1_n_n_wf : DotDims.WF S8x128x128x3x128 S128x128 S8x128x128x3x128 [4] [0] [0, 1, 2, 3] [1] [] []

variable [Facts₀]

def dot_S8x128x128x3x128_S128x128_S8x128x128x3x128_4_0_0123_1_n_n : DotDims S8x128x128x3x128 S128x128 S8x128x128x3x128 where
  lhsContracting := [4]
  rhsContracting := [0]
  lhsNonContracting := [0, 1, 2, 3]
  rhsNonContracting := [1]
  lhsBatch := []
  rhsBatch := []
  wf := dot_S8x128x128x3x128_S128x128_S8x128x128x3x128_4_0_0123_1_n_n_wf

class Facts : Prop extends Facts₀ where

variable [Facts]
-- ==== Proof.LibOuter3.lean ====
/-
  Rank-3 "outer product" layouts read at an index.

  A kernel that forms an [a, b, c] tensor from a length-c vector, an [a, b] matrix and a [b, c] matrix does it by adding
  unit axes and broadcasting: the vector as [1, 1, c], the first matrix as [a, b, 1], the second as [1, b, c].  Each of
  these reads, at (r, k, l), one entry of its operand; and the sum of an [a, b, c] tensor along its middle axis reads, at
  (r, l), the sum over k of the entries (r, k, l).  All indices are written by coordinates.
-/
import Idealize.ShloMosaic.Lib.ValueIdx
import Idealize.ShloMosaic.Lib.Pipeline.Value
import Idealize.ShloMosaic.PureOps.Ideal.Laws

noncomputable section

namespace Outer3

open Idealize.ShloMosaic Idealize.ShloMosaic.ValueIdx
open scoped BigOperators

variable {α : Type}

/-- A length-c vector cast to [1, 1, c] reads, at (u, v, l), the vector at l. -/
theorem shapeCast_c_11c_apply {c : ℕ} (x : (⟨1, ![c]⟩ : Shape).Idx → α)
    (h : (⟨1, ![c]⟩ : Shape).ShapeCasts ⟨3, ![1, 1, c]⟩) (u v : Fin 1) (l : Fin c) :
    shapeCast ⟨3, ![1, 1, c]⟩ x h (ix3 u v l) = x (ix1 l) :=
  shapeCast_apply x h _ _ (by
    have hu : u.val = 0 := by omega
    have hv : v.val = 0 := by omega
    rw [Shape.rowMajor_val_three, Shape.rowMajor_val_one]
    show l.val = (u.val * 1 + v.val) * c + l.val
    rw [hu, hv]; simp)

/-- An [a, b] matrix cast to [a, b, 1] reads, at (r, k, u), the matrix at (r, k). -/
theorem shapeCast_ab_ab1_apply {a b : ℕ} (x : (⟨2, ![a, b]⟩ : Shape).Idx → α)
    (h : (⟨2, ![a, b]⟩ : Shape).ShapeCasts ⟨3, ![a, b, 1]⟩) (r : Fin a) (k : Fin b) (u : Fin 1) :
    shapeCast ⟨3, ![a, b, 1]⟩ x h (ix3 r k u) = x (ix2 r k) :=
  shapeCast_apply x h _ _ (by
    have hu : u.val = 0 := by omega
    rw [Shape.rowMajor_val_three, Shape.rowMajor_val_two]
    show r.val * b + k.val = (r.val * b + k.val) * 1 + u.val
    rw [hu, Nat.mul_one, Nat.add_zero])

/-- A [1, 1, c] array broadcast to [a, b, c] reads, at (r, k, l), its one fibre at l. -/
theorem broadcastTo_11c_abc_apply {a b c : ℕ} (v : (⟨3, ![1, 1, c]⟩ : Shape).Idx → α)
    (h : (⟨3, ![1, 1, c]⟩ : Shape).Broadcasts ⟨3, ![a, b, c]⟩) (r : Fin a) (k : Fin b) (l : Fin c) :
    broadcastTo ⟨3, ![a, b, c]⟩ v h (ix3 r k l) = v (ix3 (0 : Fin 1) (0 : Fin 1) l) := by
  refine broadcastTo_apply v h (ix3 r k l) (ix3 (0 : Fin 1) (0 : Fin 1) l) fun ax => ?_
  match ax with
  | ⟨0, _⟩ => rfl
  | ⟨1, _⟩ => rfl
  | ⟨2, _⟩ =>
    show l.val = if c = 1 then 0 else l.val
    split
    · have := l.isLt; omega
    · rfl

/-- An [a, b, 1] array broadcast to [a, b, c] reads, at (r, k, l), its entry (r, k). -/
theorem broadcastTo_ab1_abc_apply {a b c : ℕ} (v : (⟨3, ![a, b, 1]⟩ : Shape).Idx → α)
    (h : (⟨3, ![a, b, 1]⟩ : Shape).Broadcasts ⟨3, ![a, b, c]⟩) (r : Fin a) (k : Fin b) (l : Fin c) :
    broadcastTo ⟨3, ![a, b, c]⟩ v h (ix3 r k l) = v (ix3 r k (0 : Fin 1)) := by
  refine broadcastTo_apply v h (ix3 r k l) (ix3 r k (0 : Fin 1)) fun ax => ?_
  match ax with
  | ⟨0, _⟩ =>
    show r.val = if a = 1 then 0 else r.val
    split
    · have := r.isLt; omega
    · rfl
  | ⟨1, _⟩ =>
    show k.val = if b = 1 then 0 else k.val
    split
    · have := k.isLt; omega
    · rfl
  | ⟨2, _⟩ => rfl

/-- A [1, b, c] array broadcast to [a, b, c] reads, at (r, k, l), its entry (k, l). -/
theorem broadcastTo_1bc_abc_apply {a b c : ℕ} (v : (⟨3, ![1, b, c]⟩ : Shape).Idx → α)
    (h : (⟨3, ![1, b, c]⟩ : Shape).Broadcasts ⟨3, ![a, b, c]⟩) (r : Fin a) (k : Fin b) (l : Fin c) :
    broadcastTo ⟨3, ![a, b, c]⟩ v h (ix3 r k l) = v (ix3 (0 : Fin 1) k l) := by
  refine broadcastTo_apply v h (ix3 r k l) (ix3 (0 : Fin 1) k l) fun ax => ?_
  match ax with
  | ⟨0, _⟩ => rfl
  | ⟨1, _⟩ =>
    show k.val = if b = 1 then 0 else k.val
    split
    · have := k.isLt; omega
    · rfl
  | ⟨2, _⟩ =>
    show l.val = if c = 1 then 0 else l.val
    split
    · have := l.isLt; omega
    · rfl

/-- The sum of an [a, b, c] tensor of extended reals along its middle axis reads, at (r, l), the sum over k of the
    entries (r, k, l). -/
theorem multiReduction_add_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (r : Fin a) (l : Fin c) :
    multiReduction .add [1] ⟨2, ![a, c]⟩ src acc h hφ hacc (ix2 r l) = ∑ k : Fin b, src (ix3 r k l) := by
  refine (Ideal.multiReduction_add_single src acc h hφ hacc (ix2 r l)).trans ?_
  refine Finset.sum_congr rfl fun k _ => congrArg src (funext fun ax => Fin.ext ?_)
  match ax with
  | ⟨0, _⟩ => rfl
  | ⟨1, _⟩ => rfl
  | ⟨2, _⟩ => rfl

end Outer3

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.Body.lean ====
/-
  What one grid step leaves in its output block, as one function of the step's input blocks.

  A step holds a tile of 32 nodes of one graph: two feature blocks x0, x1 of shape [1, 32, 128, 192] (node, neighbour,
  3 coordinate channels × 64 features folded into 192 columns), the adjacency rows x2 of shape [1, 32, 128], the two
  halves x3, x4 of the weight matrix ([64, 128] each) and the bias x5 ([128]).  For node r it first sums over the
  neighbours j, weighting by the adjacency entry:  s(r, l) = ∑ j, x(0, r, j, l) · x2(0, r, j)  for each feature block, and
  d(r) = ∑ j, x2(0, r, j)  (the node's degree).  Then, for each channel c, it sends columns [64c, 64c + 64) of the two
  sums through the two weight halves, adds degree × bias, clamps at zero, and stores the [32, 128] result in columns
  [128c, 128c + 128) of the [1, 32, 384] output block.  So the block at (u, r, col) holds, with c = col / 128 and
  q = col % 128,
      max ((∑ f, s0(r, 64c + f) · x3(f, q) + ∑ f, s1(r, 64c + f) · x4(f, q)) + d(r) · x5(q)) 0.
  A change of float format is the identity on the extended reals, so the casts to bf16 in front of the products vanish.
-/
import proofs.«113485_j6451040878948_2_alg».proof.Proof.Gen.KernelIdeal.Frame
import proofs.«113485_j6451040878948_2_alg».proof.Proof.LibOuter3
import proofs.«113485_j6451040878948_2_alg».proof.Proof.LibKeepdims
import proofs.«113485_j6451040878948_2_alg».proof.Proof.LibDense
import Idealize.ShloMosaic.Lib.ValueLayout
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

/-! ## The sums over the neighbours -/

/-- The adjacency-weighted sum of a feature block over the neighbours, at node r and column l. -/
theorem weighted_sum_apply (v7 : Vec Ideal S1x32x128 .f32) (v9 : Vec Ideal S1x32x128x192 .f32) (r : Fin 32) (l : Fin 192) :
    k0_pay7 v7 v9 (ix2 r l) = ∑ j : Fin 128, v9 (ix4 (0 : Fin 1) r j l) * v7 (ix3 (0 : Fin 1) r j) := by
  unfold k0_pay7 k0_pay6
  dsimp only
  refine (Outer3.multiReduction_add_mid_apply _ _ _ _ _ r l).trans (Finset.sum_congr rfl fun j _ => ?_)
  refine (mulf_apply _ _ _).trans (congrArg₂ (· * ·) ?_ ?_)
  · exact shapeCast_1abc_abc_apply v9 _ r j l
  · refine (Outer3.broadcastTo_ab1_abc_apply _ _ r j l).trans ?_
    refine (Outer3.shapeCast_ab_ab1_apply _ _ r j (0 : Fin 1)).trans ?_
    exact shapeCast_1ab_ab_apply v7 _ r j

/-- The same for the second feature block (the program repeats the operations for it). -/
theorem weighted_sum_apply' (v7 : Vec Ideal S1x32x128 .f32) (v11 : Vec Ideal S1x32x128x192 .f32) (r : Fin 32) (l : Fin 192) :
    k0_pay8 v7 v11 (ix2 r l) = ∑ j : Fin 128, v11 (ix4 (0 : Fin 1) r j l) * v7 (ix3 (0 : Fin 1) r j) := by
  unfold k0_pay8 k0_pay6
  dsimp only
  refine (Outer3.multiReduction_add_mid_apply _ _ _ _ _ r l).trans (Finset.sum_congr rfl fun j _ => ?_)
  refine (mulf_apply _ _ _).trans (congrArg₂ (· * ·) ?_ ?_)
  · exact shapeCast_1abc_abc_apply v11 _ r j l
  · refine (Outer3.broadcastTo_ab1_abc_apply _ _ r j l).trans ?_
    refine (Outer3.shapeCast_ab_ab1_apply _ _ r j (0 : Fin 1)).trans ?_
    exact shapeCast_1ab_ab_apply v7 _ r j

/-- The degree of node r: the sum of its adjacency row, kept as a column. -/
theorem degree_apply (v7 : Vec Ideal S1x32x128 .f32) (r : Fin 32) (u : Fin 1) :
    k0_pay9 v7 (ix2 r u) = ∑ j : Fin 128, v7 (ix3 (0 : Fin 1) r j) := by
  unfold k0_pay9 k0_pay6
  dsimp only
  refine (Cert.Lib.Keepdims.shapeCast_a_a1_apply _ _ r u).trans ?_
  refine (Cert.Lib.Keepdims.rowSum_apply _ _ _ _ _ r).trans (Finset.sum_congr rfl fun j _ => ?_)
  exact shapeCast_1ab_ab_apply v7 _ r j

/-! ## One channel -/

/-- The value of one channel before the clamp: columns [o, o + 64) of the two neighbour sums through the two weight
    halves, plus degree times bias. -/
def channel (o : ℕ) (hs : S32x192.Slices ![0, o] S32x64) (v2 v5 : FVec Ideal S64x128 .bf16) (v6 : Vec Ideal S128 .f32)
    (v16 v20 : FVec Ideal S32x192 .f32) (v22 : FVec Ideal S32x1 .f32) : FVec Ideal S32x128 .f32 :=
  addf (addf (matmul dot_S32x64_S64x128_S32x128_1_0_0_1_n_n none (truncf .bf16 (extractStridedSlice S32x64 ![0, o] v16 hs) bitsLt_bf16_f32) v2 (constant S32x128 .f32 0x00000000#32))
      (matmul dot_S32x64_S64x128_S32x128_1_0_0_1_n_n none (truncf .bf16 (extractStridedSlice S32x64 ![0, o] v20 hs) bitsLt_bf16_f32) v5 (constant S32x128 .f32 0x00000000#32)))
    (mulf (broadcastTo S32x128 v22 broadcasts_S32x1_S32x128) (broadcastTo S32x128 (shapeCast S1x128 v6 shapeCasts_S128_S1x128) broadcasts_S1x128_S32x128))

theorem channel_apply (o : ℕ) (ho : o + 64 ≤ 192) (hs : S32x192.Slices ![0, o] S32x64) (v2 v5 : FVec Ideal S64x128 .bf16) (v6 : Vec Ideal S128 .f32)
    (v16 v20 : FVec Ideal S32x192 .f32) (v22 : FVec Ideal S32x1 .f32) (r : Fin 32) (q : Fin 128) :
    channel o hs v2 v5 v6 v16 v20 v22 (ix2 r q)
      = (∑ f : Fin 64, v16 (ix2 r (⟨o + f.val, by have := f.isLt; omega⟩ : Fin 192)) * v2 (ix2 f q)
          + ∑ f : Fin 64, v20 (ix2 r (⟨o + f.val, by have := f.isLt; omega⟩ : Fin 192)) * v5 (ix2 f q))
        + v22 (ix2 r (0 : Fin 1)) * v6 (ix1 q) := by
  unfold channel
  refine (addf_apply _ _ _).trans (congrArg₂ (· + ·) ?_ ?_)
  · refine (addf_apply _ _ _).trans (congrArg₂ (· + ·) ?_ ?_)
    · refine (Cert.Lib.Dense.matmul_zero_at dot_S32x64_S64x128_S32x128_1_0_0_1_n_n rfl rfl rfl rfl rfl rfl _ _ r q).trans ?_
      unfold Cert.Lib.Dense.rowDot
      refine Finset.sum_congr rfl fun f _ => congrArg (· * _) ?_
      exact (truncf_apply (ψ := .bf16) (extractStridedSlice S32x64 ![0, o] v16 hs) bitsLt_bf16_f32 (ix2 r f)).trans (slice2_axis1_eq o v16 hs r f)
    · refine (Cert.Lib.Dense.matmul_zero_at dot_S32x64_S64x128_S32x128_1_0_0_1_n_n rfl rfl rfl rfl rfl rfl _ _ r q).trans ?_
      unfold Cert.Lib.Dense.rowDot
      refine Finset.sum_congr rfl fun f _ => congrArg (· * _) ?_
      exact (truncf_apply (ψ := .bf16) (extractStridedSlice S32x64 ![0, o] v20 hs) bitsLt_bf16_f32 (ix2 r f)).trans (slice2_axis1_eq o v20 hs r f)
  · refine (mulf_apply _ _ _).trans (congrArg₂ (· * ·) ?_ ?_)
    · exact Cert.Lib.Keepdims.broadcastTo_a1_ab_apply v22 _ r q
    · refine (broadcastTo_1b_ab_apply _ _ r q).trans ?_
      exact shapeCast_a_1a_apply v6 _ (0 : Fin 1) q

/-- A channel clamped at zero and given its leading unit axis, at an index. -/
theorem clamp_apply (w : FVec Ideal S32x128 .f32) (u : Fin 1) (r : Fin 32) (q : Fin 128) :
    shapeCast S1x32x128 (maximumf w (broadcast S32x128 (Scalar.ofBits (F := Ideal) .f32 0x00000000#32))) shapeCasts_S32x128_S1x32x128 (ix3 u r q)
      = max (w (ix2 r q)) 0 := by
  refine (shapeCast_ab_1ab_apply _ _ u r q).trans ?_
  refine (maximumf_apply _ _ _).trans (congrArg (max _) ?_)
  exact Ideal.ofBits_zero_f32

/-- The three stores' payloads are the three channels, clamped. -/
theorem pay_first (v0 v3 : Vec Ideal S64x128 .f32) (v6 : Vec Ideal S128 .f32) (v7 : Vec Ideal S1x32x128 .f32) (v9 v11 : Vec Ideal S1x32x128x192 .f32) :
    k0_pay1 (k0_pay10 v0 v3 v6 v7 v9 v11) (k0_pay11 (F := Ideal))
      = shapeCast S1x32x128 (maximumf (channel 0 slices_S32x192_o0_0_S32x64 (k0_pay4 v0) (k0_pay5 v3) v6 (k0_pay7 v7 v9) (k0_pay8 v7 v11) (k0_pay9 v7))
          (broadcast S32x128 (Scalar.ofBits (F := Ideal) .f32 0x00000000#32))) shapeCasts_S32x128_S1x32x128 := rfl

theorem pay_second (v2 v5 : FVec Ideal S64x128 .bf16) (v6 : Vec Ideal S128 .f32) (v16 v20 : FVec Ideal S32x192 .f32) (v22 : FVec Ideal S32x1 .f32) :
    k0_pay2 v2 v5 v6 v16 v20 v22
      = shapeCast S1x32x128 (maximumf (channel 64 slices_S32x192_o0_64_S32x64 v2 v5 v6 v16 v20 v22)
          (broadcast S32x128 (Scalar.ofBits (F := Ideal) .f32 0x00000000#32))) shapeCasts_S32x128_S1x32x128 := rfl

theorem pay_third (v2 v5 : FVec Ideal S64x128 .bf16) (v6 : Vec Ideal S128 .f32) (v16 v20 : FVec Ideal S32x192 .f32) (v22 : FVec Ideal S32x1 .f32) :
    k0_pay3 v2 v5 v6 v16 v20 v22
      = shapeCast S1x32x128 (maximumf (channel 128 slices_S32x192_o0_128_S32x64 v2 v5 v6 v16 v20 v22)
          (broadcast S32x128 (Scalar.ofBits (F := Ideal) .f32 0x00000000#32))) shapeCasts_S32x128_S1x32x128 := rfl

end Cert.KernelIdeal.Body

end
-- ==== Proof.BlockOut.lean ====
/-
  The output block of one grid step as one function of its index.

  The step's three stores write columns [0, 128), [128, 256), [256, 384) of the [1, 32, 384] block: store number c holds
  channel c.  Reading the block at (u, r, col) therefore gives channel col / 128 at (r, col % 128).  Written out over the
  step's input blocks, with s0, s1 the adjacency-weighted neighbour sums and d the degree,
      block(u, r, col) = max ((∑ f, s0(r, 64c + f) · x3(f, q) + ∑ f, s1(r, 64c + f) · x4(f, q)) + d(r) · x5(q)) 0,
  c = col / 128, q = col % 128.
-/
import proofs.«113485_j6451040878948_2_alg».proof.Proof.Body

noncomputable section

namespace Cert.KernelIdeal.Body

open Cert.KernelIdeal Cert.KernelIdeal.Gen Idealize.ShloMosaic Idealize.ShloMosaic.ValueIdx
open scoped BigOperators

/-- Channel c of node r at output feature q, before the clamp, from the step's input blocks. -/
def blockPre (x0 x1 : Vec Ideal S1x32x128x192 .f32) (x2 : Vec Ideal S1x32x128 .f32) (x3 x4 : Vec Ideal S64x128 .f32)
    (x5 : Vec Ideal S128 .f32) (r : Fin 32) (c : Fin 3) (q : Fin 128) : EReal :=
  (∑ f : Fin 64, (∑ j : Fin 128, x0 (ix4 (0 : Fin 1) r j (⟨64 * c.val + f.val, by have := c.isLt; have := f.isLt; omega⟩ : Fin 192)) * x2 (ix3 (0 : Fin 1) r j)) * x3 (ix2 f q)
    + ∑ f : Fin 64, (∑ j : Fin 128, x1 (ix4 (0 : Fin 1) r j (⟨64 * c.val + f.val, by have := c.isLt; have := f.isLt; omega⟩ : Fin 192)) * x2 (ix3 (0 : Fin 1) r j)) * x4 (ix2 f q))
  + (∑ j : Fin 128, x2 (ix3 (0 : Fin 1) r j)) * x5 (ix1 q)

/-- The block at node r and column col. -/
def blockAt (x0 x1 : Vec Ideal S1x32x128x192 .f32) (x2 : Vec Ideal S1x32x128 .f32) (x3 x4 : Vec Ideal S64x128 .f32)
    (x5 : Vec Ideal S128 .f32) (r : Fin 32) (col : Fin 384) : EReal :=
  max (blockPre x0 x1 x2 x3 x4 x5 r ⟨col.val / 128, by have := col.isLt; omega⟩ ⟨col.val % 128, Nat.mod_lt _ (by decide)⟩) 0

/-- The whole block. -/
def blockOut (x0 x1 : Vec Ideal S1x32x128x192 .f32) (x2 : Vec Ideal S1x32x128 .f32) (x3 x4 : Vec Ideal S64x128 .f32)
    (x5 : Vec Ideal S128 .f32) : Vec Ideal S1x32x384 .f32 := fun y => blockAt x0 x1 x2 x3 x4 x5 (y 1) (y 2)

/-- Column 128c + q is channel c at q. -/
theorem blockAt_of_col (x0 x1 : Vec Ideal S1x32x128x192 .f32) (x2 : Vec Ideal S1x32x128 .f32) (x3 x4 : Vec Ideal S64x128 .f32)
    (x5 : Vec Ideal S128 .f32) (r r' : Fin 32) (col : Fin 384) (c : Fin 3) (q : Fin 128) (hr : r'.val = r.val)
    (hcol : col.val = 128 * c.val + q.val) :
    blockAt x0 x1 x2 x3 x4 x5 r' col = max (blockPre x0 x1 x2 x3 x4 x5 r c q) 0 := by
  obtain rfl : r' = r := Fin.ext hr
  unfold blockAt
  have hc : (⟨col.val / 128, by have := col.isLt; omega⟩ : Fin 3) = c := Fin.ext (by have := q.isLt; show col.val / 128 = c.val; omega)
  have hq : (⟨col.val % 128, Nat.mod_lt _ (by decide)⟩ : Fin 128) = q := Fin.ext (by have := q.isLt; show col.val % 128 = q.val; omega)
  rw [hc, hq]

/-- The weights pass through their cast unchanged. -/
theorem weights_apply (v0 : Vec Ideal S64x128 .f32) (f : Fin 64) (q : Fin 128) : k0_pay4 v0 (ix2 f q) = v0 (ix2 f q) := by
  show shapeCast S64x128 v0 shapeCasts_S64x128_S64x128 (ix2 f q) = _
  rw [shapeCast_self]

theorem weights_apply' (v3 : Vec Ideal S64x128 .f32) (f : Fin 64) (q : Fin 128) : k0_pay5 v3 (ix2 f q) = v3 (ix2 f q) := by
  show shapeCast S64x128 v3 shapeCasts_S64x128_S64x128 (ix2 f q) = _
  rw [shapeCast_self]

/-- A channel over the step's own sums and weights is `blockPre`. -/
theorem channel_block (c : Fin 3) (hs : S32x192.Slices ![0, 64 * c.val] S32x64) (x0 x1 : Vec Ideal S1x32x128x192 .f32)
    (x2 : Vec Ideal S1x32x128 .f32) (x3 x4 : Vec Ideal S64x128 .f32) (x5 : Vec Ideal S128 .f32) (r : Fin 32) (q : Fin 128) :
    channel (64 * c.val) hs (k0_pay4 x3) (k0_pay5 x4) x5 (k0_pay7 x2 x0) (k0_pay8 x2 x1) (k0_pay9 x2) (ix2 r q)
      = blockPre x0 x1 x2 x3 x4 x5 r c q := by
  refine (channel_apply _ (by have := c.isLt; omega) hs _ _ _ _ _ _ r q).trans ?_
  unfold blockPre
  refine congrArg₂ (· + ·) (congrArg₂ (· + ·) (Finset.sum_congr rfl fun f _ => ?_) (Finset.sum_congr rfl fun f _ => ?_)) ?_
  · exact congrArg₂ (· * ·) (weighted_sum_apply x2 x0 r _) (weights_apply x3 f q)
  · exact congrArg₂ (· * ·) (weighted_sum_apply' x2 x1 r _) (weights_apply' x4 f q)
  · exact congrArg (· * _) (degree_apply x2 r (0 : Fin 1))

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the three stores leave is `blockOut`. -/
theorem out_eq (x0 x1 : Vec Ideal S1x32x128x192 .f32) (x2 : Vec Ideal S1x32x128 .f32) (x3 x4 : Vec Ideal S64x128 .f32)
    (x5 : Vec Ideal S128 .f32) : out0_6 x0 x1 x2 x3 x4 x5 = blockOut x0 x1 x2 x3 x4 x5 := by
  funext y
  unfold out0_6
  simp only [View.ld_unit_zero (S := S64x128) hz2, View.ld_unit_zero (S := S128) hz1, View.ld_unit_zero (S := S1x32x128) hz3,
    View.ld_unit_zero (S := S1x32x128x192) hz4]
  refine View.canon_apply_of_pieces (blockOut x0 x1 x2 x3 x4 x5) _ ?_ y (cover0_6 _ _ _ y)
  intro p hp x
  simp only [List.mem_cons, List.mem_nil_iff, or_false] at hp
  rcases hp with rfl | rfl | rfl
  · obtain ⟨u, r, q, rfl⟩ : ∃ (u : Fin 1) (r : Fin 32) (q : Fin 128), x = ix3 u r q := ⟨x 0, x 1, x 2, eq_ix3 x⟩
    show k0_pay3 (k0_pay4 x3) (k0_pay5 x4) x5 (k0_pay7 x2 x0) (k0_pay8 x2 x1) (k0_pay9 x2) (ix3 u r q) = _
    rw [pay_third]
    refine (clamp_apply _ u r q).trans ?_
    refine (congrArg (fun z => max z 0) (channel_block (2 : Fin 3) slices_S32x192_o0_128_S32x64 x0 x1 x2 x3 x4 x5 r q)).trans ?_
    exact (blockAt_of_col x0 x1 x2 x3 x4 x5 r _ _ (2 : Fin 3) q (by show 0 + 1 * r.val = r.val; omega) (by show 256 + 1 * q.val = 128 * 2 + q.val; omega)).symm
  · obtain ⟨u, r, q, rfl⟩ : ∃ (u : Fin 1) (r : Fin 32) (q : Fin 128), x = ix3 u r q := ⟨x 0, x 1, x 2, eq_ix3 x⟩
    show k0_pay2 (k0_pay4 x3) (k0_pay5 x4) x5 (k0_pay7 x2 x0) (k0_pay8 x2 x1) (k0_pay9 x2) (ix3 u r q) = _
    rw [pay_second]
    refine (clamp_apply _ u r q).trans ?_
    refine (congrArg (fun z => max z 0) (channel_block (1 : Fin 3) slices_S32x192_o0_64_S32x64 x0 x1 x2 x3 x4 x5 r q)).trans ?_
    exact (blockAt_of_col x0 x1 x2 x3 x4 x5 r _ _ (1 : Fin 3) q (by show 0 + 1 * r.val = r.val; omega) (by show 128 + 1 * q.val = 128 * 1 + q.val; omega)).symm
  · obtain ⟨u, r, q, rfl⟩ : ∃ (u : Fin 1) (r : Fin 32) (q : Fin 128), x = ix3 u r q := ⟨x 0, x 1, x 2, eq_ix3 x⟩
    show k0_pay1 (k0_pay10 x3 x4 x5 x2 x0 x1) (k0_pay11 (F := Ideal)) (ix3 u r q) = _
    rw [pay_first]
    refine (clamp_apply _ u r q).trans ?_
    refine (congrArg (fun z => max z 0) (channel_block (0 : Fin 3) slices_S32x192_o0_0_S32x64 x0 x1 x2 x3 x4 x5 r q)).trans ?_
    exact (blockAt_of_col x0 x1 x2 x3 x4 x5 r _ _ (0 : Fin 3) q (by show 0 + 1 * r.val = r.val; omega) (by show 0 + 1 * q.val = 128 * 0 + q.val; omega)).symm

end Cert.KernelIdeal.Body

end
-- ==== Proof.Spec.lean ====
/-
  The result as one function of the argument arrays.

  Inputs: two feature arrays v1, v2 of shape [8, 128, 128, 3, 64] (graph b, node i, neighbour j, coordinate channel c,
  feature f), the adjacency adj [8, 128, 128], the weights w [128, 128] (rows 0–63 act on v1's features, rows 64–127 on
  v2's) and the bias [128].  The result at (b, i, c, q) is
      max ((∑ f, (∑ j, v1(b,i,j,c,f) · adj(b,i,j)) · w(f, q) + ∑ f, (∑ j, v2(b,i,j,c,f) · adj(b,i,j)) · w(64 + f, q))
            + (∑ j, adj(b,i,j)) · bias(q)) 0.
  The computation works on re-laid arrays: the feature arrays with (c, f) folded into one axis of 192 columns
  (column 64c + f), the weights cut into their two halves, and the result with (c, q) folded into 384 columns
  (column 128c + q).  `arrPre` / `arrOut` are the same function over those; `arrPre_of_args` and `unfold_columns` undo the
  two foldings.
-/
import Idealize.ShloMosaic.PureOps.Ideal
import Idealize.ShloMosaic.Lib.ValueIdx
import Idealize.ShloMosaic.Lib.ValueLayout
import Idealize.ShloMosaic.Lib.Pipeline.Value

noncomputable section

namespace Cert.GraphConv

open Idealize.ShloMosaic Idealize.ShloMosaic.ValueIdx
open scoped BigOperators

abbrev SFeat : Shape := ⟨5, ![8, 128, 128, 3, 64]⟩
abbrev SAdj : Shape := ⟨3, ![8, 128, 128]⟩
abbrev SW : Shape := ⟨2, ![128, 128]⟩
abbrev SBias : Shape := ⟨1, ![128]⟩
abbrev SFold : Shape := ⟨4, ![8, 128, 128, 192]⟩
abbrev SHalf : Shape := ⟨2, ![64, 128]⟩
abbrev SOutFold : Shape := ⟨3, ![8, 128, 384]⟩
abbrev SOut : Shape := ⟨4, ![8, 128, 3, 128]⟩

/-- The value at (b, i, c, q) before the clamp. -/
def pre (v1 v2 : SFeat.Idx → EReal) (adj : SAdj.Idx → EReal) (w : SW.Idx → EReal) (bias : SBias.Idx → EReal)
    (b : Fin 8) (i : Fin 128) (c : Fin 3) (q : Fin 128) : EReal :=
  (∑ f : Fin 64, (∑ j : Fin 128, v1 (ix5 b i j c f) * adj (ix3 b i j)) * w (ix2 (Fin.castAdd 64 f) q)
    + ∑ f : Fin 64, (∑ j : Fin 128, v2 (ix5 b i j c f) * adj (ix3 b i j)) * w (ix2 (Fin.natAdd 64 f) q))
  + (∑ j : Fin 128, adj (ix3 b i j)) * bias (ix1 q)

/-- The result array. -/
def result (v1 v2 : SFeat.Idx → EReal) (adj : SAdj.Idx → EReal) (w : SW.Idx → EReal) (bias : SBias.Idx → EReal) :
    SOut.Idx → EReal := fun j => max (pre v1 v2 adj w bias (j 0) (j 1) (j 2) (j 3)) 0

/-- The same value over the re-laid arrays: features with 192 columns, the two weight halves. -/
def arrPre (A0 A1 : SFold.Idx → EReal) (A2 : SAdj.Idx → EReal) (A3 A4 : SHalf.Idx → EReal) (A5 : SBias.Idx → EReal)
    (b : Fin 8) (i : Fin 128) (c : Fin 3) (q : Fin 128) : EReal :=
  (∑ f : Fin 64, (∑ j : Fin 128, A0 (ix4 b i j (⟨64 * c.val + f.val, by have := c.isLt; have := f.isLt; omega⟩ : Fin 192)) * A2 (ix3 b i j)) * A3 (ix2 f q)
    + ∑ f : Fin 64, (∑ j : Fin 128, A1 (ix4 b i j (⟨64 * c.val + f.val, by have := c.isLt; have := f.isLt; omega⟩ : Fin 192)) * A2 (ix3 b i j)) * A4 (ix2 f q))
  + (∑ j : Fin 128, A2 (ix3 b i j)) * A5 (ix1 q)

/-- The folded result at graph b, node i and column col: channel col / 128 at output feature col % 128. -/
def arrOutAt (A0 A1 : SFold.Idx → EReal) (A2 : SAdj.Idx → EReal) (A3 A4 : SHalf.Idx → EReal) (A5 : SBias.Idx → EReal)
    (b : Fin 8) (i : Fin 128) (col : Fin 384) : EReal :=
  max (arrPre A0 A1 A2 A3 A4 A5 b i ⟨col.val / 128, by have := col.isLt; omega⟩ ⟨col.val % 128, Nat.mod_lt _ (by decide)⟩) 0

/-- The result with (c, q) folded into 384 columns. -/
def arrOut (A0 A1 : SFold.Idx → EReal) (A2 : SAdj.Idx → EReal) (A3 A4 : SHalf.Idx → EReal) (A5 : SBias.Idx → EReal) :
    SOutFold.Idx → EReal := fun k => arrOutAt A0 A1 A2 A3 A4 A5 (k 0) (k 1) (k 2)

/-- Column 128c + q of the folded result is (c, q). -/
theorem arrOut_of_col (A0 A1 : SFold.Idx → EReal) (A2 : SAdj.Idx → EReal) (A3 A4 : SHalf.Idx → EReal) (A5 : SBias.Idx → EReal)
    (b : Fin 8) (i : Fin 128) (col : Fin 384) (c : Fin 3) (q : Fin 128) (hcol : col.val = 128 * c.val + q.val) :
    arrOut A0 A1 A2 A3 A4 A5 (ix3 b i col) = max (arrPre A0 A1 A2 A3 A4 A5 b i c q) 0 := by
  show arrOutAt A0 A1 A2 A3 A4 A5 b i col = _
  unfold arrOutAt
  have hc : (⟨col.val / 128, by have := col.isLt; omega⟩ : Fin 3) = c := Fin.ext (by have := q.isLt; show col.val / 128 = c.val; omega)
  have hq : (⟨col.val % 128, Nat.mod_lt _ (by decide)⟩ : Fin 128) = q := Fin.ext (by have := q.isLt; show col.val % 128 = q.val; omega)
  rw [hc, hq]

/-- A feature array with (c, f) folded into one axis reads, at column 64c + f, the entry (c, f). -/
theorem fold_features_apply (v : SFeat.Idx → EReal) (h : SFeat.ShapeCasts SFold) (b : Fin 8) (i j : Fin 128) (c : Fin 3) (f : Fin 64) :
    shapeCast SFold v h (ix4 b i j (⟨64 * c.val + f.val, by have := c.isLt; have := f.isLt; omega⟩ : Fin 192)) = v (ix5 b i j c f) :=
  shapeCast_apply v h _ _ (by
    rw [Shape.rowMajor_val_five, Shape.rowMajor_val_four]
    show (((b.val * 128 + i.val) * 128 + j.val) * 3 + c.val) * 64 + f.val = ((b.val * 128 + i.val) * 128 + j.val) * 192 + (64 * c.val + f.val)
    omega)

/-- Over the folded features and the two weight halves, `arrPre` is `pre` of the arguments. -/
theorem arrPre_of_args (v1 v2 : SFeat.Idx → EReal) (adj : SAdj.Idx → EReal) (w : SW.Idx → EReal) (bias : SBias.Idx → EReal)
    (h : SFeat.ShapeCasts SFold) (h0 : SW.Slices ![0, 0] SHalf) (h64 : SW.Slices ![64, 0] SHalf)
    (b : Fin 8) (i : Fin 128) (c : Fin 3) (q : Fin 128) :
    arrPre (shapeCast SFold v1 h) (shapeCast SFold v2 h) adj (extractStridedSlice SHalf ![0, 0] w h0)
        (extractStridedSlice SHalf ![64, 0] w h64) bias b i c q
      = pre v1 v2 adj w bias b i c q := by
  unfold arrPre pre
  refine congrArg₂ (· + ·) (congrArg₂ (· + ·) (Finset.sum_congr rfl fun f _ => ?_) (Finset.sum_congr rfl fun f _ => ?_)) rfl
  · refine congrArg₂ (· * ·) (Finset.sum_congr rfl fun j _ => congrArg (· * _) (fold_features_apply v1 h b i j c f)) ?_
    exact slice2_axis0_apply 0 w h0 f q (Fin.castAdd 64 f) (by show f.val = 0 + f.val; omega)
  · refine congrArg₂ (· * ·) (Finset.sum_congr rfl fun j _ => congrArg (· * _) (fold_features_apply v2 h b i j c f)) ?_
    exact slice2_axis0_apply 64 w h64 f q (Fin.natAdd 64 f) (by show 64 + f.val = 64 + f.val; rfl)

/-- Unfolding the 384 columns of the folded result into (c, q). -/
theorem unfold_columns (A0 A1 : SFold.Idx → EReal) (A2 : SAdj.Idx → EReal) (A3 A4 : SHalf.Idx → EReal) (A5 : SBias.Idx → EReal)
    (h : SOutFold.ShapeCasts SOut) :
    shapeCast SOut (arrOut A0 A1 A2 A3 A4 A5) h = fun j => max (arrPre A0 A1 A2 A3 A4 A5 (j 0) (j 1) (j 2) (j 3)) 0 := by
  funext j
  obtain ⟨b, i, c, q, rfl⟩ : ∃ (b : Fin 8) (i : Fin 128) (c : Fin 3) (q : Fin 128), j = ix4 b i c q := ⟨j 0, j 1, j 2, j 3, eq_ix4 j⟩
  refine (shapeCast_apply _ h (ix4 b i c q) (ix3 b i (⟨128 * c.val + q.val, by have := c.isLt; have := q.isLt; omega⟩ : Fin 384)) (by
    rw [Shape.rowMajor_val_three, Shape.rowMajor_val_four]
    show (b.val * 128 + i.val) * 384 + (128 * c.val + q.val) = ((b.val * 128 + i.val) * 3 + c.val) * 128 + q.val
    omega)).trans ?_
  exact arrOut_of_col A0 A1 A2 A3 A4 A5 b i _ c q rfl

end Cert.GraphConv

end
-- ==== Proof.Blocks.lean ====
/-
  From the grid steps' blocks to the whole output array.

  Step t of the 8 × 4 grid works on graph t / 4 and on the 32 nodes starting at node 32 · (t % 4).  Its feature and
  adjacency blocks are those rows of the arrays the region finds: the features with their last two axes folded into 192
  columns, the adjacency as launched; the two weight halves and the bias are whole arrays at every step.  So the block a
  step writes back is the corresponding block of `Cert.GraphConv.arrOut` of those arrays; the 32 blocks tile the
  [8, 128, 384] output, which therefore ends holding `arrOut`.
-/
import proofs.«113485_j6451040878948_2_alg».proof.Proof.BlockOut
import proofs.«113485_j6451040878948_2_alg».proof.Proof.Spec
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (m : (ℓ : Loc nD τ sig) → Buf (Elt Ideal) ℓ) (ρ : Dev nD → PrngReg)

/-- The printed index maps over the grid: step t is at graph t / 4, node tile t % 4; the weights and the bias do not move. -/
theorem idx_facts : ∀ t : Fin cfg0.N,
    win0_0.index t (0 : Fin 4) = t.val / 4 ∧ win0_0.index t (1 : Fin 4) = t.val % 4 ∧ win0_0.index t (2 : Fin 4) = 0 ∧ win0_0.index t (3 : Fin 4) = 0
    ∧ win0_1.index t (0 : Fin 4) = t.val / 4 ∧ win0_1.index t (1 : Fin 4) = t.val % 4 ∧ win0_1.index t (2 : Fin 4) = 0 ∧ win0_1.index t (3 : Fin 4) = 0
    ∧ win0_2.index t (0 : Fin 3) = t.val / 4 ∧ win0_2.index t (1 : Fin 3) = t.val % 4 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val / 4 ∧ win0_6.index t (1 : Fin 3) = t.val % 4 ∧ win0_6.index t (2 : Fin 3) = 0 :=
  (by decide +kernel : ∀ t : Fin grid0.N, _)

/-! ## The input blocks as rows of the arrays the region finds -/

theorem iblk0_apply (c : Dev nD) (t : Fin cfg0.N) (r : Fin 32) (j : Fin 128) (l : Fin 192) (b : Fin 8) (i : Fin 128)
    (hb : b.val = t.val / 4) (hi : i.val = 32 * (t.val % 4) + r.val) :
    (iblk m c 0 t : Vec Ideal S1x32x128x192 .f32) (ix4 (0 : Fin 1) r j l) = (V m c main_v2 : S8x128x128x192.Idx → EReal) (ix4 b i j l) := by
  obtain ⟨e0, e1, e2, e3, -⟩ := idx_facts t
  unfold iblk
  rw [View.read_apply]
  show V m c main_v2 _ = V m c main_v2 _
  congr 1
  funext a
  apply Fin.ext
  match a with
  | ⟨0, _⟩ => show win0_0.index t (0 : Fin 4) * 1 + 1 * (0 : Fin 1).val = b.val; rw [e0, hb]; simp
  | ⟨1, _⟩ => show win0_0.index t (1 : Fin 4) * 32 + 1 * r.val = i.val; rw [e1, hi]; omega
  | ⟨2, _⟩ => show win0_0.index t (2 : Fin 4) * 128 + 1 * j.val = j.val; rw [e2]; omega
  | ⟨3, _⟩ => show win0_0.index t (3 : Fin 4) * 192 + 1 * l.val = l.val; rw [e3]; omega

theorem iblk1_apply (c : Dev nD) (t : Fin cfg0.N) (r : Fin 32) (j : Fin 128) (l : Fin 192) (b : Fin 8) (i : Fin 128)
    (hb : b.val = t.val / 4) (hi : i.val = 32 * (t.val % 4) + r.val) :
    (iblk m c 1 t : Vec Ideal S1x32x128x192 .f32) (ix4 (0 : Fin 1) r j l) = (V m c main_v3 : S8x128x128x192.Idx → EReal) (ix4 b i j l) := by
  obtain ⟨-, -, -, -, e0, e1, e2, e3, -⟩ := idx_facts t
  unfold iblk
  rw [View.read_apply]
  show V m c main_v3 _ = V m c main_v3 _
  congr 1
  funext a
  apply Fin.ext
  match a with
  | ⟨0, _⟩ => show win0_1.index t (0 : Fin 4) * 1 + 1 * (0 : Fin 1).val = b.val; rw [e0, hb]; simp
  | ⟨1, _⟩ => show win0_1.index t (1 : Fin 4) * 32 + 1 * r.val = i.val; rw [e1, hi]; omega
  | ⟨2, _⟩ => show win0_1.index t (2 : Fin 4) * 128 + 1 * j.val = j.val; rw [e2]; omega
  | ⟨3, _⟩ => show win0_1.index t (3 : Fin 4) * 192 + 1 * l.val = l.val; rw [e3]; omega

theorem iblk2_apply (c : Dev nD) (t : Fin cfg0.N) (r : Fin 32) (j : Fin 128) (b : Fin 8) (i : Fin 128)
    (hb : b.val = t.val / 4) (hi : i.val = 32 * (t.val % 4) + r.val) :
    (iblk m c 2 t : Vec Ideal S1x32x128 .f32) (ix3 (0 : Fin 1) r j) = (V m c main_arg2 : S8x128x128.Idx → EReal) (ix3 b i j) := by
  obtain ⟨-, -, -, -, -, -, -, -, e0, e1, e2, -⟩ := idx_facts t
  unfold iblk
  rw [View.read_apply]
  show V m c main_arg2 _ = V m c main_arg2 _
  congr 1
  funext a
  apply Fin.ext
  match a with
  | ⟨0, _⟩ => show win0_2.index t (0 : Fin 3) * 1 + 1 * (0 : Fin 1).val = b.val; rw [e0, hb]; simp
  | ⟨1, _⟩ => show win0_2.index t (1 : Fin 3) * 32 + 1 * r.val = i.val; rw [e1, hi]; omega
  | ⟨2, _⟩ => show win0_2.index t (2 : Fin 3) * 128 + 1 * j.val = j.val; rw [e2]; omega

theorem iblk3_apply (c : Dev nD) (t : Fin cfg0.N) (f : Fin 64) (q : Fin 128) :
    (iblk m c 3 t : Vec Ideal S64x128 .f32) (ix2 f q) = (V m c main_v0 : S64x128.Idx → EReal) (ix2 f q) := by
  obtain ⟨-, -, -, -, -, -, -, -, -, -, -, e0, e1, -⟩ := idx_facts t
  unfold iblk
  rw [View.read_apply]
  show V m c main_v0 _ = V m c main_v0 _
  congr 1
  funext a
  apply Fin.ext
  match a with
  | ⟨0, _⟩ => show win0_3.index t (0 : Fin 2) * 64 + 1 * f.val = f.val; rw [e0]; omega
  | ⟨1, _⟩ => show win0_3.index t (1 : Fin 2) * 128 + 1 * q.val = q.val; rw [e1]; omega

theorem iblk4_apply (c : Dev nD) (t : Fin cfg0.N) (f : Fin 64) (q : Fin 128) :
    (iblk m c 4 t : Vec Ideal S64x128 .f32) (ix2 f q) = (V m c main_v1 : S64x128.Idx → EReal) (ix2 f q) := by
  obtain ⟨-, -, -, -, -, -, -, -, -, -, -, -, -, e0, e1, -⟩ := idx_facts t
  unfold iblk
  rw [View.read_apply]
  show V m c main_v1 _ = V m c main_v1 _
  congr 1
  funext a
  apply Fin.ext
  match a with
  | ⟨0, _⟩ => show win0_4.index t (0 : Fin 2) * 64 + 1 * f.val = f.val; rw [e0]; omega
  | ⟨1, _⟩ => show win0_4.index t (1 : Fin 2) * 128 + 1 * q.val = q.val; rw [e1]; omega

theorem iblk5_apply (c : Dev nD) (t : Fin cfg0.N) (q : Fin 128) :
    (iblk m c 5 t : Vec Ideal S128 .f32) (ix1 q) = (V m c main_arg4 : S128.Idx → EReal) (ix1 q) := by
  obtain ⟨-, -, -, -, -, -, -, -, -, -, -, -, -, -, -, e0, -⟩ := idx_facts t
  unfold iblk
  rw [View.read_apply]
  show V m c main_arg4 _ = V m c main_arg4 _
  congr 1
  funext a
  apply Fin.ext
  match a with
  | ⟨0, _⟩ => show win0_5.index t (0 : Fin 1) * 128 + 1 * q.val = q.val; rw [e0]; omega

/-! ## A step's block is a block of `arrOut` -/

/-- Blocks that read arrays row for row give the arrays' value. -/
theorem blockPre_eq_arrPre (X0 X1 : Vec Ideal S1x32x128x192 .f32) (X2 : Vec Ideal S1x32x128 .f32) (X3 X4 : Vec Ideal S64x128 .f32)
    (X5 : Vec Ideal S128 .f32) (A0 A1 : Cert.GraphConv.SFold.Idx → EReal) (A2 : Cert.GraphConv.SAdj.Idx → EReal)
    (A3 A4 : Cert.GraphConv.SHalf.Idx → EReal) (A5 : Cert.GraphConv.SBias.Idx → EReal) (r : Fin 32) (b : Fin 8) (i : Fin 128)
    (h0 : ∀ j l, X0 (ix4 (0 : Fin 1) r j l) = A0 (ix4 b i j l)) (h1 : ∀ j l, X1 (ix4 (0 : Fin 1) r j l) = A1 (ix4 b i j l))
    (h2 : ∀ j, X2 (ix3 (0 : Fin 1) r j) = A2 (ix3 b i j)) (h3 : ∀ f q, X3 (ix2 f q) = A3 (ix2 f q))
    (h4 : ∀ f q, X4 (ix2 f q) = A4 (ix2 f q)) (h5 : ∀ q, X5 (ix1 q) = A5 (ix1 q)) (c : Fin 3) (q : Fin 128) :
    Body.blockPre X0 X1 X2 X3 X4 X5 r c q = Cert.GraphConv.arrPre A0 A1 A2 A3 A4 A5 b i c q := by
  unfold Body.blockPre Cert.GraphConv.arrPre
  simp only [h0, h1, h2, h3, h4, h5]

/-- The arrays the region finds, as the specification's arguments. -/
abbrev found (c : Dev nD) : Cert.GraphConv.SOutFold.Idx → EReal :=
  Cert.GraphConv.arrOut (V m c main_v2) (V m c main_v3) (V m c main_arg2) (V m c main_v0) (V m c main_v1) (V m c main_arg4)

/-- What step t writes back is block t of `arrOut` of the arrays the region finds. -/
theorem flushed_eq (c : Dev nD) (t : Fin cfg0.N) :
    (dats m 0 c).flushed 6 t = ((cfg0.win 6).blk t).view.read (Elt Ideal) (found m c) := by
  show (cfg0.win 6).cut (grid0.coords t) ((dats m 0 c).after 6 t) = _
  rw [after0_6, Body.out_eq]
  obtain ⟨-, -, -, -, -, -, -, -, -, -, -, -, -, -, -, -, e0, e1, e2⟩ := idx_facts t
  have hN : cfg0.N = 32 := N_0
  have ht : t.val < 32 := hN ▸ t.isLt
  funext y
  obtain ⟨u, r, col, rfl⟩ : ∃ (u : Fin 1) (r : Fin 32) (col : Fin 384), y = ix3 u r col := ⟨y 0, y 1, y 2, eq_ix3 y⟩
  have hb : t.val / 4 < 8 := by omega
  have hi : 32 * (t.val % 4) + r.val < 128 := by have := r.isLt; omega
  have hemb : ((cfg0.win 6).blk t).view.emb (ix3 u r col) = ix3 (⟨t.val / 4, hb⟩ : Fin 8) (⟨32 * (t.val % 4) + r.val, hi⟩ : Fin 128) col := by
    funext a
    apply Fin.ext
    match a with
    | ⟨0, _⟩ => show win0_6.index t (0 : Fin 3) * 1 + 1 * u.val = t.val / 4; rw [e0]; have := u.isLt; omega
    | ⟨1, _⟩ => show win0_6.index t (1 : Fin 3) * 32 + 1 * r.val = 32 * (t.val % 4) + r.val; rw [e1]; omega
    | ⟨2, _⟩ => show win0_6.index t (2 : Fin 3) * 384 + 1 * col.val = col.val; rw [e2]; omega
  show Body.blockAt (iblk m c 0 t) (iblk m c 1 t) (iblk m c 2 t) (iblk m c 3 t) (iblk m c 4 t) (iblk m c 5 t) r col
    = found m c (((cfg0.win 6).blk t).view.emb (ix3 u r col))
  rw [hemb]
  show _ = Cert.GraphConv.arrOutAt (V m c main_v2) (V m c main_v3) (V m c main_arg2) (V m c main_v0) (V m c main_v1) (V m c main_arg4)
    (⟨t.val / 4, hb⟩ : Fin 8) (⟨32 * (t.val % 4) + r.val, hi⟩ : Fin 128) col
  unfold Body.blockAt Cert.GraphConv.arrOutAt
  refine congrArg (fun z => max z 0) ?_
  exact blockPre_eq_arrPre (iblk m c 0 t) (iblk m c 1 t) (iblk m c 2 t) (iblk m c 3 t) (iblk m c 4 t) (iblk m c 5 t)
    (V m c main_v2) (V m c main_v3) (V m c main_arg2) (V m c main_v0) (V m c main_v1) (V m c main_arg4) r ⟨t.val / 4, hb⟩ ⟨32 * (t.val % 4) + r.val, hi⟩
    (fun j l => iblk0_apply m c t r j l _ _ rfl rfl) (fun j l => iblk1_apply m c t r j l _ _ rfl rfl)
    (fun j => iblk2_apply m c t r j _ _ rfl rfl) (fun f q => iblk3_apply m c t f q) (fun f q => iblk4_apply m c t f q)
    (fun q => iblk5_apply m c t q) _ _

/-! ## The blocks tile the array -/

/-- An index of the output array is in step t's block iff each coordinate is in the block's range on its axis. -/
theorem mem_blk (t : Fin cfg0.N) (i : S8x128x384.Idx) :
    i ∈ ((cfg0.win 6).blk t).view.set ↔ ∀ a : Fin 3, win0_6.index t a * S1x32x384.size a ≤ (i a).val ∧ (i a).val < win0_6.index t a * S1x32x384.size a + S1x32x384.size a := by
  show i ∈ ((View.whole main_v4).slice (win0_6.rect t)).set ↔ _
  rw [View.set_slice_whole, Rect.mem_set_unit]
  exact Iff.rfl

/-- Graph b, node i lies in the block of step 4b + i / 32. -/
theorem cover (i : S8x128x384.Idx) : ∃ t : Fin cfg0.N, (cfg0.win 6).flush t = true ∧ i ∈ ((cfg0.win 6).blk t).view.set := by
  have h0 : (i 0).val < 8 := (i 0).isLt
  have h1 : (i 1).val < 128 := (i 1).isLt
  have h2 : (i 2).val < 384 := (i 2).isLt
  have hN : cfg0.N = 32 := N_0
  obtain ⟨t, ht⟩ : ∃ t : Fin cfg0.N, t.val = 4 * (i 0).val + (i 1).val / 32 := ⟨⟨4 * (i 0).val + (i 1).val / 32, by rw [hN]; omega⟩, rfl⟩
  obtain ⟨-, -, -, -, -, -, -, -, -, -, -, -, -, -, -, -, e0, e1, e2⟩ := idx_facts t
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 32 ≤ (i 1).val ∧ (i 1).val < win0_6.index t (1 : Fin 3) * 32 + 32; rw [e1, ht]; omega
  | ⟨2, _⟩ => show win0_6.index t (2 : Fin 3) * 384 ≤ (i 2).val ∧ (i 2).val < win0_6.index t (2 : Fin 3) * 384 + 384; rw [e2]; omega

/-- The output array after the run is `arrOut` of the arrays the region finds. -/
theorem final (c : Dev nD) : (dats m 0 c).arrAt 6 cfg0.N = found m c :=
  (dats m 0 c).arrAt_eq_of_cover 6 (found m c) (fun t _ => flushed_eq m c t) cover

end Cert.KernelIdeal.Blocks

end
-- ==== Proof.KernelRun.lean ====
/-
  The idealized kernel's run, read: its result array is `Cert.GraphConv.result` of its arguments.

  Before the region the host cuts the weights into their two halves and folds the last two axes of each feature array
  into 192 columns; after it, the host unfolds the 384 columns of the region's output into (channel, feature).  The
  region's output is `arrOut` of the arrays it finds (the grid steps' blocks tile it), and `arrOut` of the cut and folded
  arguments, unfolded, is `result` of the arguments.
-/
import proofs.«113485_j6451040878948_2_alg».proof.Proof.Blocks
import Idealize.ShloMosaic.Lib.StableHlo.Run

noncomputable section

namespace Cert.KernelIdeal.Run

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## What the region finds in the arrays the host lines before it write -/

theorem found_weights_lo (c : Dev nD) :
    (V m c main_v0 : S64x128.Idx → EReal) = extractStridedSlice S64x128 ![0, 0] (m ((c : Thread nD τ).loc main_arg3)) slices_S128x128_S64x128_0_0 := by
  show StableHlo.after hostOps0 (fun b => m (c, b)) (Proc.devRef .tc main_v0) = _
  after_results <;> rfl

theorem found_weights_hi (c : Dev nD) :
    (V m c main_v1 : S64x128.Idx → EReal) = extractStridedSlice S64x128 ![64, 0] (m ((c : Thread nD τ).loc main_arg3)) slices_S128x128_S64x128_64_0 := by
  show StableHlo.after hostOps0 (fun b => m (c, b)) (Proc.devRef .tc main_v1) = _
  after_results <;> rfl

theorem found_feat1 (c : Dev nD) :
    (V m c main_v2 : S8x128x128x192.Idx → EReal) = shapeCast S8x128x128x192 (m ((c : Thread nD τ).loc main_arg0)) shapeCasts_S8x128x128x3x64_S8x128x128x192 := by
  show StableHlo.after hostOps0 (fun b => m (c, b)) (Proc.devRef .tc main_v2) = _
  after_results <;> rfl

theorem found_feat2 (c : Dev nD) :
    (V m c main_v3 : S8x128x128x192.Idx → EReal) = shapeCast S8x128x128x192 (m ((c : Thread nD τ).loc main_arg1)) shapeCasts_S8x128x128x3x64_S8x128x128x192 := by
  show StableHlo.after hostOps0 (fun b => m (c, b)) (Proc.devRef .tc main_v3) = _
  after_results <;> rfl

/-- The region's output array, over the arguments. -/
theorem found_eq (c : Dev nD) :
    Blocks.found m c = Cert.GraphConv.arrOut
      (shapeCast S8x128x128x192 (m ((c : Thread nD τ).loc main_arg0)) shapeCasts_S8x128x128x3x64_S8x128x128x192)
      (shapeCast S8x128x128x192 (m ((c : Thread nD τ).loc main_arg1)) shapeCasts_S8x128x128x3x64_S8x128x128x192)
      (m ((c : Thread nD τ).loc main_arg2))
      (extractStridedSlice S64x128 ![0, 0] (m ((c : Thread nD τ).loc main_arg3)) slices_S128x128_S64x128_0_0)
      (extractStridedSlice S64x128 ![64, 0] (m ((c : Thread nD τ).loc main_arg3)) slices_S128x128_S64x128_64_0)
      (m ((c : Thread nD τ).loc main_arg4)) := by
  show Cert.GraphConv.arrOut (V m c main_v2) (V m c main_v3) (V m c main_arg2) (V m c main_v0) (V m c main_v1) (V m c main_arg4) = _
  rw [found_feat1 m c, found_feat2 m c, found_weights_lo m c, found_weights_hi m c, V_main_arg2 m c, V_main_arg4 m c]

/-! ## The result after the host line that follows the region -/

/-- The result array is `result` of the arguments. -/
theorem result_eq (c : Dev nD) :
    (Pipeline.afterTail₀ cfgs (dats m) 0 (V0 m) [hostOps1] c main_v5 : S8x128x3x128.Idx → EReal)
      = Cert.GraphConv.result (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  simp only [List.flatten_cons, List.flatten_nil, List.append_nil]
  after_results
  show shapeCast S8x128x3x128 (Pipeline.withArrays (cfgs 0).spec c (V0 m c) (fun w => (dats m 0 c).arrAt w (cfgs 0).N) (Proc.devRef .tc main_v4))
    shapeCasts_S8x128x384_S8x128x3x128 = _
  refine (congrArg (fun A => shapeCast S8x128x3x128 A shapeCasts_S8x128x384_S8x128x3x128)
    ((Pipeline.withArrays_arr spec0 launch0.win.arr_inj c _ _ 6).trans (Blocks.final m c))).trans ?_
  rw [found_eq, Cert.GraphConv.unfold_columns]
  funext j
  obtain ⟨b, i, ch, q, rfl⟩ : ∃ (b : Fin 8) (i : Fin 128) (ch : Fin 3) (q : Fin 128), j = ix4 b i ch q := ⟨j 0, j 1, j 2, j 3, eq_ix4 j⟩
  exact congrArg (fun z => max z 0) (Cert.GraphConv.arrPre_of_args _ _ _ _ _ _ _ _ b i ch q)

/-! ## The run -/

/-- Every weakly fair execution terminates with the result array at `result` of the arguments and the arguments unchanged. -/
theorem run : θ_run defs (onTc (τ := τ) (main (F := Ideal))) ⟨m, fun _ => 0, ρ⟩ fun r => ∀ c : Dev nD,
      r.2.mem ((c.tc : Thread nD τ).loc main_v5) = Cert.GraphConv.result (m ((c : Thread nD τ).loc main_arg0))
          (m ((c : Thread nD τ).loc main_arg1)) (m ((c : Thread nD τ).loc main_arg2)) (m ((c : Thread nD τ).loc main_arg3))
          (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c)))⟩)
    (run_main m ρ)

end Cert.KernelIdeal.Run

end
-- ==== Proof.LibNeighbourSum.lean ====
/-
  Summing over neighbours before or after a linear map.

  Fix a node.  Each neighbour j carries a weight a j and two feature rows p j, q j (K entries each); the rows are joined
  to one row of 2K entries and sent through a linear map given by a column (u, v) of 2K entries plus an offset β.
  The weighted sum over the neighbours of the mapped rows,
      ∑ j, ((∑ k, p j k · u k + ∑ k, q j k · v k) + β) · a j,
  equals the map applied to the weighted sums of the rows, with the offset counted once per unit of total weight,
      (∑ k, (∑ j, p j k · a j) · u k + ∑ k, (∑ j, q j k · a j) · v k) + (∑ j, a j) · β.
  Over the reals this is distributivity and an exchange of two finite sums.  Over the extended reals distributivity
  fails at the infinities, so the law is stated for entries that are real numbers.
-/
import Idealize.ShloMosaic.PureOps.Ideal

noncomputable section

namespace Cert.NeighbourSum

open scoped BigOperators

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals. -/
theorem real_law {J K : ℕ} (a : Fin J → ℝ) (p q : Fin J → Fin K → ℝ) (u v : Fin K → ℝ) (β : ℝ) :
    ∑ j, ((∑ k, p j k * u k + ∑ k, q j k * v k) + β) * a j
      = (∑ k, (∑ j, p j k * a j) * u k + ∑ k, (∑ j, q j k * a j) * v k) + (∑ j, a j) * β := by
  have hp : ∑ k, (∑ j, p j k * a j) * u k = ∑ j, (∑ k, p j k * u k) * a j := by
    simp only [Finset.sum_mul]
    rw [Finset.sum_comm]
    exact Finset.sum_congr rfl fun j _ => Finset.sum_congr rfl fun k _ => by ring
  have hq : ∑ k, (∑ j, q j k * a j) * v k = ∑ j, (∑ k, q j k * v k) * a j := by
    simp only [Finset.sum_mul]
    rw [Finset.sum_comm]
    exact Finset.sum_congr rfl fun j _ => Finset.sum_congr rfl fun k _ => by ring
  rw [hp, hq, Finset.sum_mul, ← Finset.sum_add_distrib, ← Finset.sum_add_distrib]
  exact Finset.sum_congr rfl fun j _ => by ring

/-- The law over the extended reals, for entries that are real numbers. -/
theorem ereal_law {J K : ℕ} (a : Fin J → EReal) (p q : Fin J → Fin K → EReal) (u v : Fin K → EReal) (β : EReal)
    (ha : ∀ j, ∃ r : ℝ, a j = r) (hp : ∀ j k, ∃ r : ℝ, p j k = r) (hq : ∀ j k, ∃ r : ℝ, q j k = r)
    (hu : ∀ k, ∃ r : ℝ, u k = r) (hv : ∀ k, ∃ r : ℝ, v k = r) (hβ : ∃ r : ℝ, β = r) :
    ∑ j, ((∑ k, p j k * u k + ∑ k, q j k * v k) + β) * a j
      = (∑ k, (∑ j, p j k * a j) * u k + ∑ k, (∑ j, q j k * a j) * v k) + (∑ j, a j) * β := by
  choose a' ha using ha
  choose p' hp using hp
  choose q' hq using hq
  choose u' hu using hu
  choose v' hv using hv
  obtain ⟨β', rfl⟩ := hβ
  simp only [ha, hp, hq, hu, hv, ← EReal.coe_mul, ← EReal.coe_add, ← coe_sum]
  exact congrArg _ (real_law a' p' q' u' v' β')

/-- A sum over 2K consecutive positions is the sum over the first K plus the sum over the last K. -/
theorem sum_halves {M : Type*} [AddCommMonoid M] (K : ℕ) (f : Fin (K + K) → M) :
    ∑ k, f k = ∑ k : Fin K, f (Fin.castAdd K k) + ∑ k : Fin K, f (Fin.natAdd K k) :=
  Fin.sum_univ_add f

end Cert.NeighbourSum

end
-- ==== Proof.RefSide.lean ====
/-
  The reference computes `Cert.GraphConv.result`.

  Read at (b, i, c, q), the reference's run is
      max (0 + ∑ j, ((∑ k, cat(b,i,j,c,k) · w(k, q)) + bias(q)) · adj(b,i,j)) 0,
  where cat joins v1's and v2's 64 features into 128.  The sum over the 128 joined features splits into v1's half against
  rows 0–63 of w and v2's half against rows 64–127; then the law of summing over neighbours before or after the linear
  map (`Cert.NeighbourSum.ereal_law`) turns it into `pre`.  That law needs every entry to be a real number.
-/
import proofs.«113485_j6451040878948_2_alg».proof.Proof.Gen.ReferenceIdeal.Read
import proofs.«113485_j6451040878948_2_alg».proof.Proof.Spec
import proofs.«113485_j6451040878948_2_alg».proof.Proof.LibNeighbourSum
import Idealize.ShloMosaic.Lib.Pipeline.Value

noncomputable section

namespace Cert.ReferenceIdeal.RefValue

open Cert.ReferenceIdeal Idealize.ShloMosaic Idealize.ShloMosaic.ValueIdx
open scoped BigOperators

theorem e8 (b : Fin 8) (i : Fin 128) (c : Fin 3) (q : Fin 128) (j : Fin 128) :
    Read.idx_main_v8 (ix4 b i c q) j = ix5 b i j c q :=
  funext fun a => Fin.ext (by match a with | ⟨0, _⟩ => rfl | ⟨1, _⟩ => rfl | ⟨2, _⟩ => rfl | ⟨3, _⟩ => rfl | ⟨4, _⟩ => rfl)

theorem el (b : Fin 8) (i j : Fin 128) (c : Fin 3) (q k : Fin 128) :
    Read.lidx_main_v1 (ix5 b i j c q) k = ix5 b i j c k :=
  funext fun a => Fin.ext (by match a with | ⟨0, _⟩ => rfl | ⟨1, _⟩ => rfl | ⟨2, _⟩ => rfl | ⟨3, _⟩ => rfl | ⟨4, _⟩ => rfl)

theorem er (b : Fin 8) (i j : Fin 128) (c : Fin 3) (q k : Fin 128) :
    Read.ridx_main_v1 (ix5 b i j c q) k = ix2 k q :=
  funext fun a => Fin.ext (by match a with | ⟨0, _⟩ => rfl | ⟨1, _⟩ => rfl)

theorem e23 (b : Fin 8) (i j : Fin 128) (c : Fin 3) (q : Fin 128) :
    Read.idx_main_v2 (Read.idx_main_v3 (ix5 b i j c q)) = ix1 q :=
  funext fun a => Fin.ext (by match a with | ⟨0, _⟩ => rfl)

theorem e56 (b : Fin 8) (i j : Fin 128) (c : Fin 3) (q : Fin 128) :
    Read.idx_main_v5 (Read.idx_main_v6 (ix5 b i j c q)) = ix3 b i j :=
  funext fun a => Fin.ext (by match a with | ⟨0, _⟩ => rfl | ⟨1, _⟩ => rfl | ⟨2, _⟩ => rfl)

/-- The reference's run at an index, one operation after another. -/
theorem ref_apply (a0 a1 : FVec Ideal S8x128x128x3x64 .f32) (a2 : FVec Ideal S8x128x128 .f32) (a3 : FVec Ideal S128x128 .f32) (a4 : FVec Ideal S128 .f32)
    (b : Fin 8) (i : Fin 128) (c : Fin 3) (q : Fin 128) :
    Read.val_main_v9 (F := Ideal) a0 a1 a2 a3 a4 (ix4 b i c q)
      = max (0 + ∑ j : Fin 128, ((∑ k : Fin 128, Read.val_main_v0 (F := Ideal) a0 a1 (ix5 b i j c k) * a3 (ix2 k q)) + a4 (ix1 q)) * a2 (ix3 b i j)) 0 := by
  rw [Read.val_main_v9_apply, Read.val_main_v8_apply, Read.val_main_call0_v0_apply, Read.val_main_call0_cst_apply, Read.val_main_cst_apply]
  simp only [Read.val_main_v7_apply, Read.val_main_v4_apply, Read.val_main_v1_apply, Read.val_main_v3_apply, Read.val_main_v2_apply,
    Read.val_main_v6_apply, Read.val_main_v5_apply, e8, el, er, e23, e56, Ideal.maximumf_def, Ideal.addf_def, Ideal.mulf_def, Ideal.ofBits_def, Ideal.ofBits_zero_f32]

/-- The joined row at a position in its first half is v1's entry. -/
theorem cat_left (a0 a1 : FVec Ideal S8x128x128x3x64 .f32) (b : Fin 8) (i j : Fin 128) (c : Fin 3) (f : Fin 64) :
    Read.val_main_v0 (F := Ideal) a0 a1 (ix5 b i j c (Fin.castAdd 64 f)) = a0 (ix5 b i j c f) := by
  unfold Read.val_main_v0
  exact concatenate_pair_apply_left (t := S8x128x128x3x128) (4 : Fin 5) a0 a1 _ (ix5 b i j c (Fin.castAdd 64 f)) rfl (ix5 b i j c f) (fun d => by
    match d with | ⟨0, _⟩ => rfl | ⟨1, _⟩ => rfl | ⟨2, _⟩ => rfl | ⟨3, _⟩ => rfl | ⟨4, _⟩ => rfl)

/-- The joined row at a position in its second half is v2's entry. -/
theorem cat_right (a0 a1 : FVec Ideal S8x128x128x3x64 .f32) (b : Fin 8) (i j : Fin 128) (c : Fin 3) (f : Fin 64) :
    Read.val_main_v0 (F := Ideal) a0 a1 (ix5 b i j c (Fin.natAdd 64 f)) = a1 (ix5 b i j c f) := by
  unfold Read.val_main_v0
  exact concatenate_pair_apply_right (t := S8x128x128x3x128) (4 : Fin 5) a0 a1 _ (ix5 b i j c (Fin.natAdd 64 f)) rfl rfl (ix5 b i j c f) (fun d hd => by
    match d with | ⟨0, _⟩ => rfl | ⟨1, _⟩ => rfl | ⟨2, _⟩ => rfl | ⟨3, _⟩ => rfl | ⟨4, _⟩ => exact absurd rfl hd)
    (by show f.val + 64 = 64 + f.val; omega)

/-- The joined row against a column of w is v1's row against the upper half plus v2's row against the lower half. -/
theorem row_split (a0 a1 : FVec Ideal S8x128x128x3x64 .f32) (a3 : FVec Ideal S128x128 .f32) (b : Fin 8) (i j : Fin 128) (c : Fin 3) (q : Fin 128) :
    ∑ k : Fin 128, Read.val_main_v0 (F := Ideal) a0 a1 (ix5 b i j c k) * a3 (ix2 k q)
      = ∑ f : Fin 64, a0 (ix5 b i j c f) * a3 (ix2 (Fin.castAdd 64 f) q) + ∑ f : Fin 64, a1 (ix5 b i j c f) * a3 (ix2 (Fin.natAdd 64 f) q) := by
  refine (Cert.NeighbourSum.sum_halves 64 (fun k : Fin (64 + 64) => Read.val_main_v0 (F := Ideal) a0 a1 (ix5 b i j c k) * a3 (ix2 k q))).trans ?_
  refine congrArg₂ (· + ·) (Finset.sum_congr rfl fun f _ => ?_) (Finset.sum_congr rfl fun f _ => ?_)
  · exact congrArg (· * _) (cat_left a0 a1 b i j c f)
  · exact congrArg (· * _) (cat_right a0 a1 b i j c f)

/-- Under finiteness, the reference's run is `result` of its arguments. -/
theorem result_eq (a0 a1 : FVec Ideal S8x128x128x3x64 .f32) (a2 : FVec Ideal S8x128x128 .f32) (a3 : FVec Ideal S128x128 .f32) (a4 : FVec Ideal S128 .f32)
    (h0 : ∀ i, ∃ r : ℝ, a0 i = r) (h1 : ∀ i, ∃ r : ℝ, a1 i = r) (h2 : ∀ i, ∃ r : ℝ, a2 i = r) (h3 : ∀ i, ∃ r : ℝ, a3 i = r)
    (h4 : ∀ i, ∃ r : ℝ, a4 i = r) :
    Read.val_main_v9 (F := Ideal) a0 a1 a2 a3 a4 = Cert.GraphConv.result a0 a1 a2 a3 a4 := by
  funext J
  obtain ⟨b, i, c, q, rfl⟩ : ∃ (b : Fin 8) (i : Fin 128) (c : Fin 3) (q : Fin 128), J = ix4 b i c q := ⟨J 0, J 1, J 2, J 3, eq_ix4 J⟩
  rw [ref_apply]
  show _ = max (Cert.GraphConv.pre a0 a1 a2 a3 a4 b i c q) 0
  refine congrArg (fun z => max z 0) ?_
  rw [zero_add]
  simp only [row_split]
  exact Cert.NeighbourSum.ereal_law (fun j => a2 (ix3 b i j)) (fun j f => a0 (ix5 b i j c f)) (fun j f => a1 (ix5 b i j c f))
    (fun f => a3 (ix2 (Fin.castAdd 64 f) q)) (fun f => a3 (ix2 (Fin.natAdd 64 f) q)) (a4 (ix1 q))
    (fun j => h2 _) (fun j f => h0 _) (fun j f => h1 _) (fun f => h3 _) (fun f => h3 _) (h4 _)

end Cert.ReferenceIdeal.RefValue

end
-- ==== Proof.Finite.lean ====
/-
  The precondition says every entry of every input is a real number.

  The precondition computes, for each input array, whether |x| < +∞ holds at every entry, and conjoins the five answers.
  An extended real x with max x (−x) < +∞ is neither +∞ nor −∞, so it is a real.
-/
import proofs.«113485_j6451040878948_2_alg».proof.Pre_finite_inputs
import proofs.«113485_j6451040878948_2_alg».proof.Proof.Gen.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- An extended real whose absolute value compares below +∞ is a real number. -/
theorem real_of_abs_lt_inf (x : EReal)
    (h : FloatOps.cmpf (F := Ideal) (φ := .f32) .olt (FloatOps.hostAbsf x) (FloatOps.ofBits .f32 0x7F800000#32) = 1#1) :
    ∃ r : ℝ, x = r := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  have h' : max x (-x) < ⊤ := by
    by_contra hn
    simp [Ideal.cmp, hn] at h
  induction x using EReal.rec with
  | bot => simp at h'
  | coe r => exact ⟨r, rfl⟩
  | top => simp at h'

/-- Under the precondition every entry of the five inputs is a real number. -/
theorem entries_real (a0 a1 : FVec Ideal S8x128x128x3x64 .f32) (a2 : FVec Ideal S8x128x128 .f32) (a3 : FVec Ideal S128x128 .f32)
    (a4 : FVec Ideal S128 .f32) (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 := congrFun h ValueIdx.ix0
  unfold fn fn_part1 at h0
  dsimp only at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨fun i => real_of_abs_lt_inf _ (Host.reduce_andi_all _ _ _ _ _ e0 i),
    fun i => real_of_abs_lt_inf _ (Host.reduce_andi_all _ _ _ _ _ e1 i),
    fun i => real_of_abs_lt_inf _ (Host.reduce_andi_all _ _ _ _ _ e2 i),
    fun i => real_of_abs_lt_inf _ (Host.reduce_andi_all _ _ _ _ _ e3 i),
    fun i => real_of_abs_lt_inf _ (Host.reduce_andi_all _ _ _ _ _ e4 i)⟩

end Cert.Finite

end
-- ==== Proof.lean ====
/-
  A graph convolution on vector features: the kernel against its reference, over the extended reals.

  For graph b, node i, coordinate channel c and output feature q, the reference computes
      relu (∑ j, adj(b,i,j) · ((∑ f, cat(v1, v2)(b,i,j,c,f) · w(f, q)) + bias(q))):
  it maps every neighbour's joined feature row through the weights, adds the bias, weights by the adjacency entry and
  sums over the neighbours.  The kernel sums first: per node it forms the adjacency-weighted sums of v1's and of v2's
  rows over the neighbours and the node's degree ∑ j, adj(b,i,j), then maps the two (much smaller) sums through the upper
  and lower halves of the weights and adds degree × bias.  The two agree because the map is linear: distributivity and an
  exchange of two finite sums (`Cert.NeighbourSum.ereal_law`).  Distributivity fails at the infinities of the extended
  reals, so the precondition — every input entry is finite — is used: it makes every entry a real number.  The casts to
  bf16 in front of the kernel's matrix products are the identity at this instance.

  Modules: `Spec` states the result as one function of the arguments and over the re-laid arrays the kernel works on;
  `Body` and `BlockOut` read what one grid step stores, `Blocks` tiles the steps' blocks into the output array,
  `KernelRun` reads the host lines around the region and the run; `RefSide` reads the reference's run and applies the
  law; `Finite` turns the precondition into "every entry is a real".  The three frames are the generated ones, and the
  idealization rewrote nothing, so that conjunct is trivial.
-/
import proofs.«113485_j6451040878948_2_alg».proof.Defs
import proofs.«113485_j6451040878948_2_alg».proof.Proof.Gen.Kernel
import proofs.«113485_j6451040878948_2_alg».proof.Proof.Gen.Kernel.Skeleton
import proofs.«113485_j6451040878948_2_alg».proof.Proof.Gen.Kernel.Launch
import proofs.«113485_j6451040878948_2_alg».proof.Proof.Gen.Kernel.Points
import proofs.«113485_j6451040878948_2_alg».proof.Proof.Gen.Kernel.Frame
import proofs.«113485_j6451040878948_2_alg».proof.Proof.Gen.KernelIdeal
import proofs.«113485_j6451040878948_2_alg».proof.Proof.Gen.KernelIdeal.Skeleton
import proofs.«113485_j6451040878948_2_alg».proof.Proof.Gen.KernelIdeal.Launch
import proofs.«113485_j6451040878948_2_alg».proof.Proof.Gen.KernelIdeal.Points
import proofs.«113485_j6451040878948_2_alg».proof.Proof.Gen.KernelIdeal.Frame
import proofs.«113485_j6451040878948_2_alg».proof.Proof.Gen.ReferenceIdeal
import proofs.«113485_j6451040878948_2_alg».proof.Proof.Gen.Pre_finite_inputs
import proofs.«113485_j6451040878948_2_alg».proof.Proof.Gen.ReferenceIdeal.Run
import proofs.«113485_j6451040878948_2_alg».proof.Proof.Gen.ReferenceIdeal.Read
import proofs.«113485_j6451040878948_2_alg».proof.Proof.KernelRun
import proofs.«113485_j6451040878948_2_alg».proof.Proof.RefSide
import proofs.«113485_j6451040878948_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel launch: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the result array at `Cert.GraphConv.result` of the (agreeing) arguments: the kernel by its
    run read block by block, the reference by its run read operation by operation and the law of summing over the
    neighbours before or after the linear map, which holds because every entry is a real number. -/
theorem algebraic : Cert.algebraic_KernelIdeal_ReferenceIdeal := by
  intro m ρ m' ρ' hpre hagree
  refine ⟨fun c => Cert.GraphConv.result (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  obtain ⟨f0, f1, f2, f3, f4⟩ := Cert.Finite.entries_real _ _ _ _ _ (hpre c)
  rw [Cert.ReferenceIdeal.Read.val_main_v9_eq, e0, e1, e2, e3, e4]
  exact Cert.ReferenceIdeal.RefValue.result_eq _ _ _ _ _ f0 f1 f2 f3 f4

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
